-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S4x256x256 : Shape := ⟨3, ![4, 256, 256]⟩
abbrev S4x256 : Shape := ⟨2, ![4, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S4x256x256 .f32) (main_arg5 : FVec F S4x256 .f32) (main_arg6 : FVec F S4x256 .f32) (main_v13 : IVec S_ 1) (main_v16 : IVec S4x256x256 1) : IVec S_ 1 :=
  let main_c_5 : IVec S_ 1 := constantI S_ 1 1#1
  let main_v17 : IVec S_ 1 := (fun x v => Host.reduce IntOp.andi x v reducesTo_S4x256x256_S_d0_1_2 h_S_) main_v16 main_c_5
  let main_v18 : IVec S_ 1 := andi main_v13 main_v17
  let main_v19 : FVec F S4x256x256 .f32 := Host.absf main_arg4
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x256 .f32 := Host.absf main_arg5
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : FVec F S65536x256 .f32) (main_arg1 : FVec F S65536x256 .f32) (main_arg2 : FVec F S65536x256 .f32) (main_arg3 : FVec F S4x256x256 .f32) (main_arg4 : FVec F S4x256x256 .f32) (main_arg5 : FVec F S4x256 .f32) (main_arg6 : FVec F S4x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S4x256x256 .f32 := Host.absf main_arg3
  let main_cst_4 : FVec F S_ .f32 := constant S_ .f32 0x7F800000#32
  let main_v15 : FVec F S4x256x256 .f32 := broadcastInDim S4x256x256 ![] bcast_S_S4x256x256 main_cst_4
  let main_v16 : IVec S4x256x256 1 := cmpf .olt main_v14 main_v15
  fn_part1 (F := F) main_arg4 main_arg5 main_arg6 main_v13 main_v16
-- ==== Kernel.lean ====
abbrev S65536x256 : Shape := ⟨2, ![65536, 256]⟩
abbrev S4x256x256 : Shape := ⟨3, ![4, 256, 256]⟩
abbrev S4x256 : Shape := ⟨2, ![4, 256]⟩
abbrev S256x4x256 : Shape := ⟨3, ![256, 4, 256]⟩
abbrev S256x1024 : Shape := ⟨2, ![256, 1024]⟩
abbrev S1x1024 : Shape := ⟨2, ![1, 1024]⟩
abbrev S1024x256 : Shape := ⟨2, ![1024, 256]⟩
abbrev S1024x1024 : Shape := ⟨2, ![1024, 1024]⟩

abbrev nBuf : Space → Nat
  | .hbm => 17
  | .vmem => 13
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S4x256x256, .f32⟩
  | .hbm, ⟨4, _⟩ => ⟨S4x256x256, .f32⟩
  | .hbm, ⟨5, _⟩ => ⟨S4x256, .f32⟩
  | .hbm, ⟨6, _⟩ => ⟨S4x256, .f32⟩
  | .hbm, ⟨7, _⟩ => ⟨S256x4x256, .f32⟩
  | .hbm, ⟨8, _⟩ => ⟨S256x1024, .f32⟩
  | .hbm, ⟨9, _⟩ => ⟨S256x1024, .bf16⟩
  | .hbm, ⟨10, _⟩ => ⟨S256x4x256, .f32⟩
  | .hbm, ⟨11, _⟩ => ⟨S256x1024, .f32⟩
  | .hbm, ⟨12, _⟩ => ⟨S256x1024, .bf16⟩
  | .hbm, ⟨13, _⟩ => ⟨S4x256, .f32⟩
  | .hbm, ⟨14, _⟩ => ⟨S1x1024, .f32⟩
  | .hbm, ⟨15, _⟩ => ⟨S65536x256, .f32⟩
  | .hbm, ⟨16, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S4x256x256_S256x4x256_2_0_1 : S4x256x256.Transposes [2, 0, 1] S256x4x256
  shapeCasts_S256x4x256_S256x1024 : S256x4x256.ShapeCasts S256x1024
  bitsLt_bf16_f32 : FTy.bits .bf16 < FTy.bits .f32
  shapeCasts_S4x256_S1x1024 : S4x256.ShapeCasts S1x1024
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S65536x256.size a
  hwx0_6 : ∀ i : grid0.Coords, EltTy.bits .f32 = 32 ∨ (Rect.block (s := S65536x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x256 : Shape := ⟨2, ![65536, 256]⟩
abbrev S4x256x256 : Shape := ⟨3, ![4, 256, 256]⟩
abbrev S4x256 : Shape := ⟨2, ![4, 256]⟩
abbrev S65536x4x256 : Shape := ⟨3, ![65536, 4, 256]⟩
abbrev S1x4x256 : Shape := ⟨3, ![1, 4, 256]⟩
abbrev S65536x1x256 : Shape := ⟨3, ![65536, 1, 256]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S4x256x256, .f32⟩
  | .hbm, ⟨4, _⟩ => ⟨S4x256x256, .f32⟩
  | .hbm, ⟨5, _⟩ => ⟨S4x256, .f32⟩
  | .hbm, ⟨6, _⟩ => ⟨S4x256, .f32⟩
  | .hbm, ⟨7, _⟩ => ⟨S65536x4x256, .f32⟩
  | .hbm, ⟨8, _⟩ => ⟨S65536x4x256, .f32⟩
  | .hbm, ⟨9, _⟩ => ⟨S65536x4x256, .f32⟩
  | .hbm, ⟨10, _⟩ => ⟨S1x4x256, .f32⟩
  | .hbm, ⟨11, _⟩ => ⟨S65536x4x256, .f32⟩
  | .hbm, ⟨12, _⟩ => ⟨S65536x4x256, .f32⟩
  | .hbm, ⟨13, _⟩ => ⟨S1x4x256, .f32⟩
  | .hbm, ⟨14, _⟩ => ⟨S65536x4x256, .f32⟩
  | .hbm, ⟨15, _⟩ => ⟨S65536x4x256, .f32⟩
  | .hbm, ⟨16, _⟩ => ⟨S65536x1x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S_, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S65536x1x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S_, .f32⟩
  | .hbm, ⟨34, _⟩ => ⟨S65536x256, .f32⟩
  | .hbm, ⟨35, _⟩ => ⟨S65536x256, .f32⟩
  | .hbm, ⟨36, _⟩ => ⟨S65536x1x256, .f32⟩
  | .hbm, ⟨37, _⟩ => ⟨S65536x256, .f32⟩
  | .hbm, ⟨38, _⟩ => ⟨S65536x256, .f32⟩
  | .hbm, ⟨39, _⟩ => ⟨S65536x1x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S4x256_S1x4x256_1_2 : S4x256.BroadcastsInDim S1x4x256 (![1, 2] : Fin 2 → Fin S1x4x256.rank)
  bcast_S1x4x256_S65536x4x256_0_1_2 : S1x4x256.BroadcastsInDim S65536x4x256 (![0, 1, 2] : Fin 3 → Fin S65536x4x256.rank)
  slices_S65536x4x256_S65536x1x256_0_0_0 : S65536x4x256.Slices ![0, 0, 0] S65536x1x256
  shapeCasts_S65536x1x256_S65536x256 : S65536x1x256.ShapeCasts S65536x256
  bcast_S_S65536x256 : S_.BroadcastsInDim S65536x256 (![] : Fin 0 → Fin S65536x256.rank)
  slices_S65536x4x256_S65536x1x256_0_1_0 : S65536x4x256.Slices ![0, 1, 0] S65536x1x256
  slices_S65536x4x256_S65536x1x256_0_2_0 : S65536x4x256.Slices ![0, 2, 0] S65536x1x256
  slices_S65536x4x256_S65536x1x256_0_3_0 : S65536x4x256.Slices ![0, 3, 0] S65536x1x256
  dot_S65536x256_S4x256x256_S65536x4x256_1_2_0_01_n_n_wf : DotDims.WF S65536x256 S4x256x256 S65536x4x256 [1] [2] [0] [0, 1] [] []

variable [Facts₀]

def dot_S65536x256_S4x256x256_S65536x4x256_1_2_0_01_n_n : DotDims S65536x256 S4x256x256 S65536x4x256 where
  lhsContracting := [1]
  rhsContracting := [2]
  lhsNonContracting := [0]
  rhsNonContracting := [0, 1]
  lhsBatch := []
  rhsBatch := []
  wf := dot_S65536x256_S4x256x256_S65536x4x256_1_2_0_01_n_n_wf

class Facts : Prop extends Facts₀ where

variable [Facts]
-- ==== Proof.LibSigmoidTanh.lean ====
/-
  The logistic function written with a hyperbolic tangent.

  On the reals 1/2 * (tanh (x/2) + 1) = 1 / (1 + exp (-x)).  On the extended reals, with tanh(-inf) = -1,
  tanh(+inf) = 1, exp(-inf) = 0, exp(+inf) = +inf and 1 / (+inf) = 0, the two sides also agree at both
  infinities (both are 0 at -inf and 1 at +inf), so the identity holds at EVERY extended real and needs no
  finiteness hypothesis.
-/
import Idealize.ShloMosaic.PureOps.Ideal.Laws
import Idealize.ShloMosaic.Lib.IdealHost

noncomputable section

namespace Cert.SigmoidTanh

open Idealize.ShloMosaic

/-- The f32 pattern `0x3F000000` is one half. -/
theorem ofBits_half_f32 : Ideal.ofBits .f32 0x3F000000#32 = (((1 : ℝ) / 2 : ℝ) : EReal) := by
  simp [Ideal.ofBits, Ideal.ieee, -EReal.coe_mul]; norm_num

/-- On the reals: half of (tanh of half the argument, plus one) is the logistic function. -/
theorem real_half_tanh (r : ℝ) : (1 / 2 : ℝ) * (Real.tanh (1 / 2 * r) + 1) = 1 / (1 + Real.exp (-r)) := by
  have ha : 0 < Real.exp (1 / 2 * r) := Real.exp_pos _
  have hb : 0 < Real.exp (-(1 / 2 * r)) := Real.exp_pos _
  have hab : Real.exp (1 / 2 * r) * Real.exp (-(1 / 2 * r)) = 1 := by rw [← Real.exp_add]; simp
  have hbb : Real.exp (-r) = Real.exp (-(1 / 2 * r)) * Real.exp (-(1 / 2 * r)) := by
    rw [← Real.exp_add]; congr 1; ring
  rw [Real.tanh_eq_sinh_div_cosh, Real.sinh_eq, Real.cosh_eq, hbb]
  generalize Real.exp (1 / 2 * r) = a at *
  generalize Real.exp (-(1 / 2 * r)) = b at *
  have hs : a + b ≠ 0 := by positivity
  have hd : 1 + b * b ≠ 0 := by positivity
  have e1 : (1 / 2 : ℝ) * ((a - b) / 2 / ((a + b) / 2) + 1) = a / (a + b) := by
    field_simp
    ring
  have e2 : 1 / (1 + b * b) = a / (a + b) := by
    rw [div_eq_div_iff hd hs]
    linear_combination (-b) * hab
  rw [e1, e2]

/-- At every extended real: `1/2 * (tanh (1/2 * g) + 1) = 1 / (1 + exp (-g))`, the constants given by their
    f32 bit patterns (0x3F000000 is 1/2, 0x3F800000 is 1). -/
theorem half_tanh_eq_logistic (g : EReal) :
    Ideal.ofBits .f32 0x3F000000#32 * (Ideal.tanh (Ideal.ofBits .f32 0x3F000000#32 * g) + Ideal.ofBits .f32 0x3F800000#32)
      = Ideal.div (Ideal.ofBits .f32 0x3F800000#32) (Ideal.ofBits .f32 0x3F800000#32 + Ideal.exp (-g)) := by
  rw [ofBits_half_f32, Ideal.ofBits_one_f32]
  have hpos : (0 : ℝ) < 1 / 2 := by norm_num
  have one_coe : (1 : EReal) = ((1 : ℝ) : EReal) := by norm_cast
  induction g using EReal.rec with
  | bot =>
    rw [EReal.coe_mul_bot_of_pos hpos, EReal.neg_bot]
    show ((1 / 2 : ℝ) : EReal) * ((-1 : EReal) + 1) = Ideal.div 1 (1 + ⊤)
    have h0 : (-1 : EReal) + 1 = 0 := by
      rw [one_coe, ← EReal.coe_neg, ← EReal.coe_add]; norm_num
    rw [h0, mul_zero, EReal.add_top_of_ne_bot (by rw [one_coe]; exact EReal.coe_ne_bot 1)]
    unfold Ideal.div
    rw [if_neg EReal.top_ne_zero, EReal.inv_top, mul_zero]
  | top =>
    rw [EReal.coe_mul_top_of_pos hpos, EReal.neg_top]
    show ((1 / 2 : ℝ) : EReal) * ((1 : EReal) + 1) = Ideal.div 1 (1 + 0)
    rw [add_zero, one_coe, Ideal.div_coe one_ne_zero, ← EReal.coe_add, ← EReal.coe_mul, ← EReal.coe_mul]
    norm_num
  | coe r =>
    rw [← EReal.coe_mul, ← EReal.coe_neg]
    show ((1 / 2 : ℝ) : EReal) * (((Real.tanh (1 / 2 * r) : ℝ) : EReal) + 1) = Ideal.div 1 (1 + ((Real.exp (-r) : ℝ) : EReal))
    have hne : (1 : ℝ) + Real.exp (-r) ≠ 0 := by positivity
    rw [one_coe, ← EReal.coe_add, ← EReal.coe_add, Ideal.div_coe hne, ← EReal.coe_mul, ← EReal.coe_mul,
      real_half_tanh r, one_mul]

end Cert.SigmoidTanh

end
-- ==== Proof.CellSpec.lean ====
/-
  One step of a long short-term memory cell, as one function of the argument arrays.

  For a batch row r, a gate k (0 input, 1 forget, 2 candidate, 3 output) and a hidden unit j, the gate's
  pre-activation is
      pre(r, k, j) = ((sum_i x(r, i) * Wi(k, j, i)  +  sum_i h(r, i) * Wh(k, j, i)) + bi(k, j)) + bh(k, j),
  and the new cell and hidden states are
      c'(r, j) = sigm(pre(r,1,j)) * c(r, j) + sigm(pre(r,0,j)) * tanh(pre(r,2,j)),
      h'(r, j) = sigm(pre(r,3,j)) * tanh(c'(r, j)),
  with sigm(g) = 1 / (1 + exp(-g)).  Everything is read on the extended reals; nothing here needs the inputs
  to be finite: a kernel that adds the two biases first meets this by associativity of addition, and one that
  writes sigm with a hyperbolic tangent meets it at every extended real (LibSigmoidTanh).
-/
import Idealize.ShloMosaic.PureOps.Ideal.Laws
import Idealize.ShloMosaic.Lib.ValueIdx
import proofs.«179582_j82703890252312_2_alg».proof.Proof.LibSigmoidTanh

noncomputable section

namespace Cert.Lstm

open Idealize.ShloMosaic Idealize.ShloMosaic.ValueIdx

/-- The logistic function, `1 / (1 + exp (-g))`, the constant one given by its f32 pattern. -/
def sigm (g : EReal) : EReal :=
  Ideal.div (Ideal.ofBits .f32 0x3F800000#32) (Ideal.ofBits .f32 0x3F800000#32 + Ideal.exp (-g))

/-- The new cell state from the input, forget and candidate pre-activations and the old cell state. -/
def cellC (gi gf gg c : EReal) : EReal := sigm gf * c + sigm gi * Ideal.tanh gg

/-- The new hidden state from the four pre-activations and the old cell state. -/
def cellH (gi gf gg go c : EReal) : EReal := sigm go * Ideal.tanh (cellC gi gf gg c)

/-- A cell whose three logistic gates are written `1/2 * (tanh (1/2 * g) + 1)` is the same cell. -/
theorem cellC_of_tanh (gi gf gg c : EReal) :
    Ideal.ofBits .f32 0x3F000000#32 * (Ideal.tanh (Ideal.ofBits .f32 0x3F000000#32 * gf) + Ideal.ofBits .f32 0x3F800000#32) * c
      + Ideal.ofBits .f32 0x3F000000#32 * (Ideal.tanh (Ideal.ofBits .f32 0x3F000000#32 * gi) + Ideal.ofBits .f32 0x3F800000#32) * Ideal.tanh gg
      = cellC gi gf gg c := by
  rw [SigmoidTanh.half_tanh_eq_logistic, SigmoidTanh.half_tanh_eq_logistic]
  rfl

theorem cellH_of_tanh (gi gf gg go c : EReal) :
    Ideal.ofBits .f32 0x3F000000#32 * (Ideal.tanh (Ideal.ofBits .f32 0x3F000000#32 * go) + Ideal.ofBits .f32 0x3F800000#32)
      * Ideal.tanh (Ideal.ofBits .f32 0x3F000000#32 * (Ideal.tanh (Ideal.ofBits .f32 0x3F000000#32 * gf) + Ideal.ofBits .f32 0x3F800000#32) * c
        + Ideal.ofBits .f32 0x3F000000#32 * (Ideal.tanh (Ideal.ofBits .f32 0x3F000000#32 * gi) + Ideal.ofBits .f32 0x3F800000#32) * Ideal.tanh gg)
      = cellH gi gf gg go c := by
  rw [cellC_of_tanh, SigmoidTanh.half_tanh_eq_logistic]
  rfl

/-- The batch-by-hidden shape, the stacked weights' shape and the stacked biases' shape. -/
abbrev SBH : Shape := ⟨2, ![65536, 256]⟩
abbrev SW : Shape := ⟨3, ![4, 256, 256]⟩
abbrev Sb : Shape := ⟨2, ![4, 256]⟩

/-- Gate k's pre-activation at batch row r and hidden unit j. -/
def pre (x h : SBH.Idx → EReal) (Wi Wh : SW.Idx → EReal) (bi bh : Sb.Idx → EReal)
    (r : Fin 65536) (k : Fin 4) (j : Fin 256) : EReal :=
  ((∑ i : Fin 256, x (ix2 r i) * Wi (ix3 k j i)) + (∑ i : Fin 256, h (ix2 r i) * Wh (ix3 k j i)) + bi (ix2 k j)) + bh (ix2 k j)

/-- The same pre-activation with the two biases added to each other first. -/
theorem pre_bias_first (x h : SBH.Idx → EReal) (Wi Wh : SW.Idx → EReal) (bi bh : Sb.Idx → EReal)
    (r : Fin 65536) (k : Fin 4) (j : Fin 256) :
    ((∑ i : Fin 256, x (ix2 r i) * Wi (ix3 k j i)) + (∑ i : Fin 256, h (ix2 r i) * Wh (ix3 k j i))) + (bi (ix2 k j) + bh (ix2 k j))
      = pre x h Wi Wh bi bh r k j := by
  unfold pre
  exact (add_assoc _ _ _).symm

/-- The new cell state, as a whole array. -/
def cNew (x h c : SBH.Idx → EReal) (Wi Wh : SW.Idx → EReal) (bi bh : Sb.Idx → EReal) : SBH.Idx → EReal := fun i =>
  cellC (pre x h Wi Wh bi bh (i 0) 0 (i 1)) (pre x h Wi Wh bi bh (i 0) 1 (i 1)) (pre x h Wi Wh bi bh (i 0) 2 (i 1)) (c i)

/-- The new hidden state, as a whole array. -/
def hNew (x h c : SBH.Idx → EReal) (Wi Wh : SW.Idx → EReal) (bi bh : Sb.Idx → EReal) : SBH.Idx → EReal := fun i =>
  cellH (pre x h Wi Wh bi bh (i 0) 0 (i 1)) (pre x h Wi Wh bi bh (i 0) 1 (i 1)) (pre x h Wi Wh bi bh (i 0) 2 (i 1))
    (pre x h Wi Wh bi bh (i 0) 3 (i 1)) (c i)

end Cert.Lstm

end
-- ==== Proof.RefValue.lean ====
/-
  The reference computes the cell of CellSpec.

  The host program stacks the four gates' pre-activations in one [65536, 4, 256] array
  (two contractions over the 256 inputs, then the two biases added one after the other), slices out each gate,
  and applies 1 / (1 + exp (-g)) or tanh entrywise.  Read at an index this is `cNew` and `hNew` literally:
  entry (r, k, j) of the stacked array is `pre r k j`, and gate k's slice at (r, j) reads the stacked array at (r, k, j).
-/
import proofs.«179582_j82703890252312_2_alg».proof.Proof.Gen.ReferenceIdeal.Read
import proofs.«179582_j82703890252312_2_alg».proof.Proof.CellSpec

noncomputable section

namespace Cert.Lstm.Ref

open Cert.ReferenceIdeal Cert.ReferenceIdeal.Gen Cert.ReferenceIdeal.Read Idealize.ShloMosaic Idealize.ShloMosaic.ValueIdx

variable (x0 x1 x2 : (⟨S65536x256, .f32⟩ : BufTy).Contents (Elt Ideal))
  (x3 x4 : (⟨S4x256x256, .f32⟩ : BufTy).Contents (Elt Ideal))
  (x5 x6 : (⟨S4x256, .f32⟩ : BufTy).Contents (Elt Ideal))

/-- Entry (r, k, j) of the stacked pre-activations. -/
theorem stacked_at (r : Fin 65536) (k : Fin 4) (j : Fin 256) :
    val_main_v8 (F := Ideal) x0 x1 x3 x4 x5 x6 (ix3 r k j) = pre x0 x1 x3 x4 x5 x6 r k j := by
  rw [val_main_v8_apply, val_main_v5_apply, val_main_v2_apply, val_main_v0_apply, val_main_v1_apply,
    val_main_v4_apply, val_main_v3_apply, val_main_v7_apply, val_main_v6_apply]
  have e0 : ∀ i : Fin 256, lidx_main_v0 (ix3 r k j) i = ix2 r i := fun i => funext fun a => by
    match a with | ⟨0, _⟩ => rfl | ⟨1, _⟩ => rfl
  have e1 : ∀ i : Fin 256, ridx_main_v0 (ix3 r k j) i = ix3 k j i := fun i => funext fun a => by
    match a with | ⟨0, _⟩ => rfl | ⟨1, _⟩ => rfl | ⟨2, _⟩ => rfl
  have e2 : ∀ i : Fin 256, lidx_main_v1 (ix3 r k j) i = ix2 r i := fun i => funext fun a => by
    match a with | ⟨0, _⟩ => rfl | ⟨1, _⟩ => rfl
  have e3 : ∀ i : Fin 256, ridx_main_v1 (ix3 r k j) i = ix3 k j i := fun i => funext fun a => by
    match a with | ⟨0, _⟩ => rfl | ⟨1, _⟩ => rfl | ⟨2, _⟩ => rfl
  have e4 : idx_main_v3 (idx_main_v4 (ix3 r k j)) = ix2 k j := funext fun a => by
    match a with | ⟨0, _⟩ => rfl | ⟨1, _⟩ => rfl
  have e5 : idx_main_v6 (idx_main_v7 (ix3 r k j)) = ix2 k j := funext fun a => by
    match a with | ⟨0, _⟩ => rfl | ⟨1, _⟩ => rfl
  simp only [e0, e1, e2, e3, e4, e5]
  rfl

/-- The input gate's slice at (p, q) is the stacked array at (p, 0, q). -/
theorem gate0_at (p : Fin 65536) (q : Fin 256) :
    val_main_v10 (F := Ideal) x0 x1 x3 x4 x5 x6 (ix2 p q) = pre x0 x1 x3 x4 x5 x6 p 0 q := by
  have hp : p.val < 65536 := p.isLt
  have hq : q.val < 256 := q.isLt
  have e : idx_main_v9 (idx_main_v10 (ix2 p q)) = ix3 p 0 q := funext fun a => Fin.ext (by
    match a with
    | ⟨0, _⟩ => show (p.val * 256 + q.val) / 256 = p.val; omega
    | ⟨1, _⟩ => rfl
    | ⟨2, _⟩ => show (p.val * 256 + q.val) % 256 = q.val; omega)
  rw [val_main_v10_apply, val_main_v9_apply, e, stacked_at]

/-- The forget gate's slice at (p, q) is the stacked array at (p, 1, q). -/
theorem gate1_at (p : Fin 65536) (q : Fin 256) :
    val_main_v18 (F := Ideal) x0 x1 x3 x4 x5 x6 (ix2 p q) = pre x0 x1 x3 x4 x5 x6 p 1 q := by
  have hp : p.val < 65536 := p.isLt
  have hq : q.val < 256 := q.isLt
  have e : idx_main_v17 (idx_main_v18 (ix2 p q)) = ix3 p 1 q := funext fun a => Fin.ext (by
    match a with
    | ⟨0, _⟩ => show (p.val * 256 + q.val) / 256 = p.val; omega
    | ⟨1, _⟩ => rfl
    | ⟨2, _⟩ => show (p.val * 256 + q.val) % 256 = q.val; omega)
  rw [val_main_v18_apply, val_main_v17_apply, e, stacked_at]

/-- The candidate's slice at (p, q) is the stacked array at (p, 2, q). -/
theorem gate2_at (p : Fin 65536) (q : Fin 256) :
    val_main_v26 (F := Ideal) x0 x1 x3 x4 x5 x6 (ix2 p q) = pre x0 x1 x3 x4 x5 x6 p 2 q := by
  have hp : p.val < 65536 := p.isLt
  have hq : q.val < 256 := q.isLt
  have e : idx_main_v25 (idx_main_v26 (ix2 p q)) = ix3 p 2 q := funext fun a => Fin.ext (by
    match a with
    | ⟨0, _⟩ => show (p.val * 256 + q.val) / 256 = p.val; omega
    | ⟨1, _⟩ => rfl
    | ⟨2, _⟩ => show (p.val * 256 + q.val) % 256 = q.val; omega)
  rw [val_main_v26_apply, val_main_v25_apply, e, stacked_at]

/-- The output gate's slice at (p, q) is the stacked array at (p, 3, q). -/
theorem gate3_at (p : Fin 65536) (q : Fin 256) :
    val_main_v29 (F := Ideal) x0 x1 x3 x4 x5 x6 (ix2 p q) = pre x0 x1 x3 x4 x5 x6 p 3 q := by
  have hp : p.val < 65536 := p.isLt
  have hq : q.val < 256 := q.isLt
  have e : idx_main_v28 (idx_main_v29 (ix2 p q)) = ix3 p 3 q := funext fun a => Fin.ext (by
    match a with
    | ⟨0, _⟩ => show (p.val * 256 + q.val) / 256 = p.val; omega
    | ⟨1, _⟩ => rfl
    | ⟨2, _⟩ => show (p.val * 256 + q.val) % 256 = q.val; omega)
  rw [val_main_v29_apply, val_main_v28_apply, e, stacked_at]

/-- The reference's second result is the new cell state. -/
theorem ref_c : val_main_v38 (F := Ideal) x0 x1 x2 x3 x4 x5 x6 = cNew x0 x1 x2 x3 x4 x5 x6 := by
  funext i
  obtain ⟨p, q, rfl⟩ : ∃ (p : Fin 65536) (q : Fin 256), i = ix2 p q := ⟨i 0, i 1, eq_ix2 i⟩
  rw [val_main_v38_apply, val_main_v36_apply, val_main_v37_apply, val_main_v24_apply, val_main_v23_apply, val_main_cst_2_apply,
    val_main_v22_apply, val_main_v21_apply, val_main_cst_1_apply, val_main_v20_apply, val_main_v19_apply, gate1_at,
    val_main_v16_apply, val_main_v15_apply, val_main_cst_0_apply, val_main_v14_apply, val_main_v13_apply, val_main_cst_apply,
    val_main_v12_apply, val_main_v11_apply, gate0_at, val_main_v27_apply, gate2_at]
  rfl

/-- The reference's first result is the new hidden state. -/
theorem ref_h : val_main_v40 (F := Ideal) x0 x1 x2 x3 x4 x5 x6 = hNew x0 x1 x2 x3 x4 x5 x6 := by
  funext i
  obtain ⟨p, q, rfl⟩ : ∃ (p : Fin 65536) (q : Fin 256), i = ix2 p q := ⟨i 0, i 1, eq_ix2 i⟩
  rw [val_main_v40_apply, val_main_v39_apply, ref_c,
    val_main_v35_apply, val_main_v34_apply, val_main_cst_4_apply, val_main_v33_apply, val_main_v32_apply, val_main_cst_3_apply,
    val_main_v31_apply, val_main_v30_apply, gate3_at]
  rfl

end Cert.Lstm.Ref

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.Gates.lean ====
/-
  The kernel's tile body at an entry.

  One grid point holds 1024 batch rows.  The body multiplies the rows of x and of h by the two 256 x 1024
  weight matrices (the four gates side by side along the columns, gate k in columns 256 k .. 256 k + 255),
  adds the two products and the 1 x 1024 bias row, and cuts the result into the four gates.  So the stacked
  pre-activation at row p and column q is
      (sum_i x(p, i) * Wi'(i, q) + sum_i h(p, i) * Wh'(i, q)) + b'(0, q),
  and the block the body stores at (p, j) is the cell of CellSpec at the pre-activations in columns
  j, 256 + j, 512 + j and 768 + j, its logistic gates written with a hyperbolic tangent.
-/
import proofs.«179582_j82703890252312_2_alg».proof.Proof.Gen.KernelIdeal.Value
import proofs.«179582_j82703890252312_2_alg».proof.Proof.LibMatmul
import proofs.«179582_j82703890252312_2_alg».proof.Proof.CellSpec
import Idealize.ShloMosaic.Lib.Pipeline.Value
import Idealize.ShloMosaic.Lib.ValueIdx

noncomputable section

namespace Cert.Lstm.Kern

open Cert.KernelIdeal Cert.KernelIdeal.Gen Idealize.ShloMosaic Idealize.ShloMosaic.ValueIdx

variable (P0 P1 : Vec Ideal S1024x256 .f32) (P2 P3 : Vec Ideal S256x1024 .bf16) (P4 : Vec Ideal S1x1024 .f32)
  (P5 : Vec Ideal S1024x256 .f32)

/-- The stacked pre-activation of a tile at row p and column q. -/
def tileGate (p : Fin 1024) (q : Fin 1024) : EReal :=
  ((∑ i : Fin 256, P0 (ix2 p i) * P2 (ix2 i q)) + (∑ i : Fin 256, P1 (ix2 p i) * P3 (ix2 i q))) + P4 (ix2 0 q)

theorem pay3_at (p : Fin 1024) (q : Fin 1024) :
    k0_pay3 P0 P1 P2 P3 P4 (ix2 p q) = tileGate P0 P1 P2 P3 P4 p q := by
  unfold k0_pay3 tileGate
  rw [shapeCast_self, shapeCast_self, shapeCast_self]
  rw [addf_apply, addf_apply]
  congr 1
  · congr 1
    · exact MatmulAt.matmul_zero_plain_apply _ none _ P2 p q
    · exact MatmulAt.matmul_zero_plain_apply _ none _ P3 p q
  · refine broadcastTo_apply P4 _ (ix2 p q) (ix2 0 q) (fun a => ?_)
    match a with
    | ⟨0, _⟩ => show (0 : ℕ) = if (1 : ℕ) = 1 then 0 else _; rw [if_pos rfl]
    | ⟨1, _⟩ => show q.val = if (1024 : ℕ) = 1 then 0 else q.val; rw [if_neg (by decide)]

/-- Column j of gate k among the 1024 stacked columns. -/
def col (k : Fin 4) (j : Fin 256) : Fin 1024 := ⟨j.val + 256 * k.val, by have := k.isLt; have := j.isLt; omega⟩

/-- The block of new hidden states a point stores, at (p, j): the cell at the four gates' columns. -/
theorem hidden_block_at (p : Fin 1024) (j : Fin 256) :
    Value.E6 P0 P1 P2 P3 P4 P5 (ix2 p j)
      = cellH (tileGate P0 P1 P2 P3 P4 p (col 0 j)) (tileGate P0 P1 P2 P3 P4 p (col 1 j)) (tileGate P0 P1 P2 P3 P4 p (col 2 j))
          (tileGate P0 P1 P2 P3 P4 p (col 3 j)) (P5 (ix2 p j)) := by
  have e0 : Value.ix6_0 (ix2 p j) = ix2 p (col 3 j) := funext fun a => Fin.ext (by
    match a with | ⟨0, _⟩ => rfl | ⟨1, _⟩ => rfl)
  have e1 : Value.ix6_1 (ix2 p j) = ix2 p (col 1 j) := funext fun a => Fin.ext (by
    match a with | ⟨0, _⟩ => rfl | ⟨1, _⟩ => rfl)
  have e2 : Value.ix6_2 (ix2 p j) = ix2 p j := funext fun a => Fin.ext (by
    match a with | ⟨0, _⟩ => rfl | ⟨1, _⟩ => rfl)
  have e3 : Value.ix6_3 (ix2 p j) = ix2 p (col 0 j) := funext fun a => Fin.ext (by
    match a with | ⟨0, _⟩ => rfl | ⟨1, _⟩ => rfl)
  have e4 : Value.ix6_4 (ix2 p j) = ix2 p (col 2 j) := funext fun a => Fin.ext (by
    match a with | ⟨0, _⟩ => rfl | ⟨1, _⟩ => rfl)
  unfold Value.E6
  rw [e0, e1, e2, e3, e4, pay3_at, pay3_at, pay3_at, pay3_at]
  exact cellH_of_tanh _ _ _ _ _

/-- The block of new cell states a point stores, at (p, j). -/
theorem cell_block_at (p : Fin 1024) (j : Fin 256) :
    Value.E7 P0 P1 P2 P3 P4 P5 (ix2 p j)
      = cellC (tileGate P0 P1 P2 P3 P4 p (col 0 j)) (tileGate P0 P1 P2 P3 P4 p (col 1 j)) (tileGate P0 P1 P2 P3 P4 p (col 2 j))
          (P5 (ix2 p j)) := by
  have e0 : Value.ix7_0 (ix2 p j) = ix2 p (col 1 j) := funext fun a => Fin.ext (by
    match a with | ⟨0, _⟩ => rfl | ⟨1, _⟩ => rfl)
  have e1 : Value.ix7_1 (ix2 p j) = ix2 p j := funext fun a => Fin.ext (by
    match a with | ⟨0, _⟩ => rfl | ⟨1, _⟩ => rfl)
  have e2 : Value.ix7_2 (ix2 p j) = ix2 p (col 0 j) := funext fun a => Fin.ext (by
    match a with | ⟨0, _⟩ => rfl | ⟨1, _⟩ => rfl)
  have e3 : Value.ix7_3 (ix2 p j) = ix2 p (col 2 j) := funext fun a => Fin.ext (by
    match a with | ⟨0, _⟩ => rfl | ⟨1, _⟩ => rfl)
  unfold Value.E7
  rw [e0, e1, e2, e3, pay3_at, pay3_at, pay3_at]
  exact cellC_of_tanh _ _ _ _

end Cert.Lstm.Kern

end
-- ==== Proof.HostPrep.lean ====
/-
  What the host lays out before the tiles run.

  The stacked input weights Wi[k, j, i] (gate, hidden unit, input) are transposed to [i, k, j] and flattened to a
  256 x 1024 matrix, so column 256 k + j of row i holds Wi[k, j, i]; the same for the recurrent weights; the two
  4 x 256 biases are added and flattened to one 1 x 1024 row, so column 256 k + j holds bi[k, j] + bh[k, j].
  (The change of float format on the weights is the identity on the extended reals.)
-/
import proofs.«179582_j82703890252312_2_alg».proof.Proof.Gen.KernelIdeal.Frame
import proofs.«179582_j82703890252312_2_alg».proof.Proof.Gates
import Idealize.ShloMosaic.Lib.Pipeline.Value
import Idealize.ShloMosaic.Lib.ValueIdx
import Idealize.ShloMosaic.Lib.StableHlo.Run

noncomputable section

namespace Cert.Lstm.Kern

open Cert.KernelIdeal Cert.KernelIdeal.Gen Idealize.ShloMosaic Idealize.ShloMosaic.ValueIdx
  Idealize.ShloMosaic.TcCoe Idealize.SL.Sem Idealize.ShloMosaic.StableHlo

variable (m : (ℓ : Loc nD τ sig) → Buf (Elt Ideal) ℓ)

/-- The seven argument arrays on a device, as plain arrays of extended reals. -/
abbrev aX (c : Dev nD) : SBH.Idx → EReal := m ((c : Thread nD τ).loc main_arg0)
abbrev aH (c : Dev nD) : SBH.Idx → EReal := m ((c : Thread nD τ).loc main_arg1)
abbrev aC (c : Dev nD) : SBH.Idx → EReal := m ((c : Thread nD τ).loc main_arg2)
abbrev aWi (c : Dev nD) : SW.Idx → EReal := m ((c : Thread nD τ).loc main_arg3)
abbrev aWh (c : Dev nD) : SW.Idx → EReal := m ((c : Thread nD τ).loc main_arg4)
abbrev aBi (c : Dev nD) : Sb.Idx → EReal := m ((c : Thread nD τ).loc main_arg5)
abbrev aBh (c : Dev nD) : Sb.Idx → EReal := m ((c : Thread nD τ).loc main_arg6)

/-- The input weights as the tiles find them: transposed, flattened, format changed. -/
theorem V_wi (c : Dev nD) : (V m c main_v2 : FVec Ideal S256x1024 .bf16)
    = truncf (F := Ideal) .bf16 (shapeCast S256x1024 (transpose S256x4x256 [2, 0, 1] (m ((c : Thread nD τ).loc main_arg3)) transposes_S4x256x256_S256x4x256_2_0_1) shapeCasts_S256x4x256_S256x1024) bitsLt_bf16_f32 := by
  dsimp only [Gen.V, Gen.hostOps0]
  after_results
  rfl

/-- The recurrent weights as the tiles find them. -/
theorem V_wh (c : Dev nD) : (V m c main_v5 : FVec Ideal S256x1024 .bf16)
    = truncf (F := Ideal) .bf16 (shapeCast S256x1024 (transpose S256x4x256 [2, 0, 1] (m ((c : Thread nD τ).loc main_arg4)) transposes_S4x256x256_S256x4x256_2_0_1) shapeCasts_S256x4x256_S256x1024) bitsLt_bf16_f32 := by
  dsimp only [Gen.V, Gen.hostOps0]
  after_results
  rfl

/-- The bias row as the tiles find it. -/
theorem V_b (c : Dev nD) : (V m c main_v7 : FVec Ideal S1x1024 .f32)
    = shapeCast S1x1024 (addf (F := Ideal) (s := S4x256) (φ := .f32) (m ((c : Thread nD τ).loc main_arg5)) (m ((c : Thread nD τ).loc main_arg6))) shapeCasts_S4x256_S1x1024 := by
  dsimp only [Gen.V, Gen.hostOps0]
  after_results
  rfl

/-- Row i, column 256 k + j of the flattened input weights is Wi[k, j, i]. -/
theorem wi_at (c : Dev nD) (i : Fin 256) (k : Fin 4) (j : Fin 256) :
    (V m c main_v2 : FVec Ideal S256x1024 .bf16) (ix2 i (col k j))
      = aWi m c (ix3 k j i) := by
  rw [V_wi, truncf_apply]
  refine (shapeCast_apply _ _ (ix2 i (col k j)) (ix3 i k j) ?_).trans ?_
  · rw [Shape.rowMajor_val_three, Shape.rowMajor_val_two]
    show (i.val * 4 + k.val) * 256 + j.val = i.val * 1024 + (j.val + 256 * k.val)
    omega
  · exact transpose_apply [2, 0, 1] _ _ (ix3 i k j) (ix3 k j i) (fun b => by
      match b with | ⟨0, _⟩ => rfl | ⟨1, _⟩ => rfl | ⟨2, _⟩ => rfl)

/-- Row i, column 256 k + j of the flattened recurrent weights is Wh[k, j, i]. -/
theorem wh_at (c : Dev nD) (i : Fin 256) (k : Fin 4) (j : Fin 256) :
    (V m c main_v5 : FVec Ideal S256x1024 .bf16) (ix2 i (col k j))
      = aWh m c (ix3 k j i) := by
  rw [V_wh, truncf_apply]
  refine (shapeCast_apply _ _ (ix2 i (col k j)) (ix3 i k j) ?_).trans ?_
  · rw [Shape.rowMajor_val_three, Shape.rowMajor_val_two]
    show (i.val * 4 + k.val) * 256 + j.val = i.val * 1024 + (j.val + 256 * k.val)
    omega
  · exact transpose_apply [2, 0, 1] _ _ (ix3 i k j) (ix3 k j i) (fun b => by
      match b with | ⟨0, _⟩ => rfl | ⟨1, _⟩ => rfl | ⟨2, _⟩ => rfl)

/-- Column 256 k + j of the bias row is bi[k, j] + bh[k, j]. -/
theorem b_at (c : Dev nD) (k : Fin 4) (j : Fin 256) :
    (V m c main_v7 : FVec Ideal S1x1024 .f32) (ix2 0 (col k j))
      = aBi m c (ix2 k j) + aBh m c (ix2 k j) := by
  rw [V_b]
  refine (shapeCast_apply _ _ (ix2 0 (col k j)) (ix2 k j) ?_).trans ?_
  · rw [Shape.rowMajor_val_two, Shape.rowMajor_val_two]
    show k.val * 256 + j.val = 0 * 1024 + (j.val + 256 * k.val)
    omega
  · rfl

end Cert.Lstm.Kern

end
-- ==== Proof.Blocks.lean ====
/-
  From the tiles to the whole arrays.

  Grid point t works on batch rows 1024 t .. 1024 t + 1023: the blocks of x, h, c it reads and the blocks of the
  two results it writes are those rows, all 256 columns; the two weight matrices and the bias row are read whole
  at every point.  So what point t writes back is rows 1024 t .. 1024 t + 1023 of `hNew` and of `cNew` of the argument arrays,
  the 64 points' blocks cover all 65536 rows, and after the run the two result arrays are `hNew` and `cNew`.
-/
import proofs.«179582_j82703890252312_2_alg».proof.Proof.Gen.KernelIdeal.Value
import proofs.«179582_j82703890252312_2_alg».proof.Proof.HostPrep
import Idealize.ShloMosaic.Lib.Pipeline.Value
import Idealize.ShloMosaic.Lib.ValueIdx

noncomputable section

namespace Cert.Lstm.Kern

open Cert.KernelIdeal Cert.KernelIdeal.Gen Idealize.ShloMosaic Idealize.ShloMosaic.ValueIdx
  Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 grid points: the row-blocked windows sit at block row t, column block 0;
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Point t's block of x is rows 1024 t .. 1024 t + 1023 of x. -/
theorem xblk_at (c : Dev nD) (t : Fin cfg0.N) (p : Fin 1024) (j : Fin 256) (r : Fin 65536) (hr : r.val = t.val * 1024 + p.val) :
    (iblk m c 0 t : Vec Ideal S1024x256 .f32) (ix2 p j) = aX m c (ix2 r j) := by
  obtain ⟨h00, h01, h10, h11, h20, h21, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 1024 + 1 * p.val = r.val; omega
  | ⟨1, _⟩ => show win0_0.index t (1 : Fin 2) * 256 + 1 * j.val = j.val; omega

/-- Point t's block of h is the same rows of h. -/
theorem hblk_at (c : Dev nD) (t : Fin cfg0.N) (p : Fin 1024) (j : Fin 256) (r : Fin 65536) (hr : r.val = t.val * 1024 + p.val) :
    (iblk m c 1 t : Vec Ideal S1024x256 .f32) (ix2 p j) = aH m c (ix2 r j) := by
  obtain ⟨h00, h01, h10, h11, h20, h21, -⟩ := idx_facts t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 1024 + 1 * p.val = r.val; omega
  | ⟨1, _⟩ => show win0_1.index t (1 : Fin 2) * 256 + 1 * j.val = j.val; omega

/-- Point t's block of c is the same rows of c. -/
theorem cblk_at (c : Dev nD) (t : Fin cfg0.N) (p : Fin 1024) (j : Fin 256) (r : Fin 65536) (hr : r.val = t.val * 1024 + p.val) :
    (iblk m c 2 t : Vec Ideal S1024x256 .f32) (ix2 p j) = aC m c (ix2 r j) := by
  obtain ⟨h00, h01, h10, h11, h20, h21, -⟩ := idx_facts t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 1024 + 1 * p.val = r.val; omega
  | ⟨1, _⟩ => show win0_2.index t (1 : Fin 2) * 256 + 1 * j.val = j.val; omega

/-- Every point's block of the flattened input weights is the whole matrix. -/
theorem wiblk_at (c : Dev nD) (t : Fin cfg0.N) (i : Fin 256) (q : Fin 1024) :
    (iblk m c 3 t : Vec Ideal S256x1024 .bf16) (ix2 i q) = (V m c main_v2 : FVec Ideal S256x1024 .bf16) (ix2 i q) := by
  obtain ⟨-, -, -, -, -, -, h30, h31, -⟩ := idx_facts t
  unfold iblk
  rw [View.read_apply]
  show V m c main_v2 _ = V m c main_v2 _
  congr 1
  funext a
  apply Fin.ext
  match a with
  | ⟨0, _⟩ => show win0_3.index t (0 : Fin 2) * 256 + 1 * i.val = i.val; omega
  | ⟨1, _⟩ => show win0_3.index t (1 : Fin 2) * 1024 + 1 * q.val = q.val; omega

/-- Every point's block of the flattened recurrent weights is the whole matrix. -/
theorem whblk_at (c : Dev nD) (t : Fin cfg0.N) (i : Fin 256) (q : Fin 1024) :
    (iblk m c 4 t : Vec Ideal S256x1024 .bf16) (ix2 i q) = (V m c main_v5 : FVec Ideal S256x1024 .bf16) (ix2 i q) := by
  obtain ⟨-, -, -, -, -, -, -, -, h40, h41, -⟩ := idx_facts t
  unfold iblk
  rw [View.read_apply]
  show V m c main_v5 _ = V m c main_v5 _
  congr 1
  funext a
  apply Fin.ext
  match a with
  | ⟨0, _⟩ => show win0_4.index t (0 : Fin 2) * 256 + 1 * i.val = i.val; omega
  | ⟨1, _⟩ => show win0_4.index t (1 : Fin 2) * 1024 + 1 * q.val = q.val; omega

/-- Every point's block of the bias row is the whole row. -/
theorem bblk_at (c : Dev nD) (t : Fin cfg0.N) (q : Fin 1024) :
    (iblk m c 5 t : Vec Ideal S1x1024 .f32) (ix2 0 q) = (V m c main_v7 : FVec Ideal S1x1024 .f32) (ix2 0 q) := by
  obtain ⟨-, -, -, -, -, -, -, -, -, -, h50, h51, -⟩ := idx_facts t
  unfold iblk
  rw [View.read_apply]
  show V m c main_v7 _ = V m c main_v7 _
  congr 1
  funext a
  apply Fin.ext
  match a with
  | ⟨0, _⟩ => show win0_5.index t (0 : Fin 2) * 1 + 1 * 0 = 0; omega
  | ⟨1, _⟩ => show win0_5.index t (1 : Fin 2) * 1024 + 1 * q.val = q.val; omega

/-- A tile's stacked pre-activation at its row p and gate k's column j is `pre` of the argument arrays at the batch row
    the tile's row p is. -/
theorem tile_gate_eq (c : Dev nD) (t : Fin cfg0.N) (p : Fin 1024) (r : Fin 65536) (hr : r.val = t.val * 1024 + p.val)
    (k : Fin 4) (j : Fin 256) :
    tileGate (iblk m c 0 t) (iblk m c 1 t) (iblk m c 3 t) (iblk m c 4 t) (iblk m c 5 t) p (col k j)
      = pre (aX m c) (aH m c) (aWi m c) (aWh m c) (aBi m c) (aBh m c) r k j := by
  unfold tileGate
  rw [← pre_bias_first]
  congr 1
  · congr 1
    · refine Finset.sum_congr rfl fun i _ => ?_
      rw [xblk_at m c t p i r hr, wiblk_at m c t i (col k j), wi_at m c i k j]
    · refine Finset.sum_congr rfl fun i _ => ?_
      rw [hblk_at m c t p i r hr, whblk_at m c t i (col k j), wh_at m c i k j]
  · rw [bblk_at m c t (col k j), b_at m c k j]

/-- What the tile body leaves for result window 6, at a block index y, is `hNew` of the argument arrays at the array index
    the block index is at point t. -/
theorem hidden_point (c : Dev nD) (t : Fin cfg0.N) (y : S1024x256.Idx) (i : S65536x256.Idx)
    (h0 : (i 0).val = t.val * 1024 + (y 0).val) (h1 : (i 1).val = (y 1).val) :
    Value.E6 (iblk m c 0 t) (iblk m c 1 t) (iblk m c 3 t) (iblk m c 4 t) (iblk m c 5 t) (iblk m c 2 t) y
      = hNew (aX m c) (aH m c) (aC m c) (aWi m c) (aWh m c) (aBi m c) (aBh m c) i := by
  obtain ⟨p, j, rfl⟩ : ∃ (p : Fin 1024) (j : Fin 256), y = ix2 p j := ⟨y 0, y 1, eq_ix2 y⟩
  obtain ⟨r, j', rfl⟩ : ∃ (r : Fin 65536) (j' : Fin 256), i = ix2 r j' := ⟨i 0, i 1, eq_ix2 i⟩
  have hr : r.val = t.val * 1024 + p.val := h0
  obtain rfl : j' = j := Fin.ext h1
  refine (hidden_block_at _ _ _ _ _ _ p j').trans ?_
  rw [tile_gate_eq m c t p r hr 0 j', tile_gate_eq m c t p r hr 1 j', tile_gate_eq m c t p r hr 2 j', tile_gate_eq m c t p r hr 3 j',
    cblk_at m c t p j' r hr]
  rfl

/-- WHAT POINT t WRITES BACK through result window 6 is block t of `hNew` of the argument arrays. -/
theorem flushed6_eq (c : Dev nD) (t : Fin cfg0.N) :
    (dats m 0 c).flushed 6 t = ((cfg0.win 6).blk t).view.read (Elt Ideal)
      (hNew (aX m c) (aH m c) (aC m c) (aWi m c) (aWh m c) (aBi m c) (aBh m c)) := by
  obtain ⟨-, -, -, -, -, -, -, -, -, -, -, -, h60, h61, h70, h71⟩ := idx_facts t
  rw [Value.flushed6]
  unfold out0_6
  simp only [View.ld_unit_zero (S := S1024x256) hz, View.ld_unit_zero (S := S256x1024) hz, View.ld_unit_zero (S := S1x1024) hz]
  funext y
  refine (Value.canon6_eq _ _ _ _ _ _ y).trans ?_
  refine (hidden_point m c t y (((cfg0.win 6).blk t).view.emb y) ?_ ?_).trans ?_
  · show win0_6.index t (0 : Fin 2) * 1024 + 1 * (y 0).val = t.val * 1024 + (y 0).val
    omega
  · show win0_6.index t (1 : Fin 2) * 256 + 1 * (y 1).val = (y 1).val
    omega
  · rfl

/-- An index of the array is in point t's block iff each coordinate is in the block's range on its axis. -/
theorem mem_blk6 (t : Fin cfg0.N) (i : S65536x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v8_0).slice (win0_6.rect t)).set ↔ _
  rw [View.set_slice_whole, Rect.mem_set_unit]
  exact Iff.rfl

/-- Every row of the array lies in the block of the point its row number divided by 1024 names. -/
theorem cover6 (i : S65536x256.Idx) :
    ∃ t : Fin cfg0.N, (cfg0.win 6).flush t = true ∧ i ∈ ((cfg0.win 6).blk t).view.set := by
  have hi0 : (i 0).val < 65536 := (i 0).isLt
  have hi1 : (i 1).val < 256 := (i 1).isLt
  have hN : cfg0.N = 64 := N_0
  have ht : (i 0).val / 1024 < cfg0.N := by rw [hN]; omega
  obtain ⟨-, -, -, -, -, -, -, -, -, -, -, -, h60, h61, h70, h71⟩ := idx_facts ⟨(i 0).val / 1024, ht⟩
  refine ⟨⟨(i 0).val / 1024, ht⟩, flush0_6 _, ?_⟩
  rw [mem_blk6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [h60]
    show (i 0).val / 1024 * 1024 ≤ (i 0).val ∧ (i 0).val < (i 0).val / 1024 * 1024 + 1024
    omega
  | ⟨1, _⟩ =>
    show win0_6.index ⟨(i 0).val / 1024, ht⟩ (1 : Fin 2) * 256 ≤ (i 1).val ∧ (i 1).val < win0_6.index ⟨(i 0).val / 1024, ht⟩ (1 : Fin 2) * 256 + 256
    rw [h61]
    omega

/-- After the run result window 6's array is `hNew` of the argument arrays. -/
theorem final6 (c : Dev nD) : (dats m 0 c).arrAt 6 cfg0.N
    = hNew (aX m c) (aH m c) (aC m c) (aWi m c) (aWh m c) (aBi m c) (aBh m c) :=
  (dats m 0 c).arrAt_eq_of_cover 6 _ (fun t _ => flushed6_eq m c t) cover6

/-- What the tile body leaves for result window 7, at a block index y, is `cNew` of the argument arrays at the array index
    the block index is at point t. -/
theorem cell_point (c : Dev nD) (t : Fin cfg0.N) (y : S1024x256.Idx) (i : S65536x256.Idx)
    (h0 : (i 0).val = t.val * 1024 + (y 0).val) (h1 : (i 1).val = (y 1).val) :
    Value.E7 (iblk m c 0 t) (iblk m c 1 t) (iblk m c 3 t) (iblk m c 4 t) (iblk m c 5 t) (iblk m c 2 t) y
      = cNew (aX m c) (aH m c) (aC m c) (aWi m c) (aWh m c) (aBi m c) (aBh m c) i := by
  obtain ⟨p, j, rfl⟩ : ∃ (p : Fin 1024) (j : Fin 256), y = ix2 p j := ⟨y 0, y 1, eq_ix2 y⟩
  obtain ⟨r, j', rfl⟩ : ∃ (r : Fin 65536) (j' : Fin 256), i = ix2 r j' := ⟨i 0, i 1, eq_ix2 i⟩
  have hr : r.val = t.val * 1024 + p.val := h0
  obtain rfl : j' = j := Fin.ext h1
  refine (cell_block_at _ _ _ _ _ _ p j').trans ?_
  rw [tile_gate_eq m c t p r hr 0 j', tile_gate_eq m c t p r hr 1 j', tile_gate_eq m c t p r hr 2 j',
    cblk_at m c t p j' r hr]
  rfl

/-- WHAT POINT t WRITES BACK through result window 7 is block t of `cNew` of the argument arrays. -/
theorem flushed7_eq (c : Dev nD) (t : Fin cfg0.N) :
    (dats m 0 c).flushed 7 t = ((cfg0.win 7).blk t).view.read (Elt Ideal)
      (cNew (aX m c) (aH m c) (aC m c) (aWi m c) (aWh m c) (aBi m c) (aBh m c)) := by
  obtain ⟨-, -, -, -, -, -, -, -, -, -, -, -, h60, h61, h70, h71⟩ := idx_facts t
  rw [Value.flushed7]
  unfold out0_7
  simp only [View.ld_unit_zero (S := S1024x256) hz, View.ld_unit_zero (S := S256x1024) hz, View.ld_unit_zero (S := S1x1024) hz]
  funext y
  refine (Value.canon7_eq _ _ _ _ _ _ y).trans ?_
  refine (cell_point m c t y (((cfg0.win 7).blk t).view.emb y) ?_ ?_).trans ?_
  · show win0_7.index t (0 : Fin 2) * 1024 + 1 * (y 0).val = t.val * 1024 + (y 0).val
    omega
  · show win0_7.index t (1 : Fin 2) * 256 + 1 * (y 1).val = (y 1).val
    omega
  · rfl

/-- An index of the array is in point t's block iff each coordinate is in the block's range on its axis. -/
theorem mem_blk7 (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v8_1).slice (win0_7.rect t)).set ↔ _
  rw [View.set_slice_whole, Rect.mem_set_unit]
  exact Iff.rfl

/-- Every row of the array lies in the block of the point its row number divided by 1024 names. -/
theorem cover7 (i : S65536x256.Idx) :
    ∃ t : Fin cfg0.N, (cfg0.win 7).flush t = true ∧ i ∈ ((cfg0.win 7).blk t).view.set := by
  have hi0 : (i 0).val < 65536 := (i 0).isLt
  have hi1 : (i 1).val < 256 := (i 1).isLt
  have hN : cfg0.N = 64 := N_0
  have ht : (i 0).val / 1024 < cfg0.N := by rw [hN]; omega
  obtain ⟨-, -, -, -, -, -, -, -, -, -, -, -, h60, h61, h70, h71⟩ := idx_facts ⟨(i 0).val / 1024, ht⟩
  refine ⟨⟨(i 0).val / 1024, ht⟩, flush0_7 _, ?_⟩
  rw [mem_blk7]
  intro a
  match a with
  | ⟨0, _⟩ =>
    show win0_7.index ⟨(i 0).val / 1024, ht⟩ (0 : Fin 2) * 1024 ≤ (i 0).val ∧ (i 0).val < win0_7.index ⟨(i 0).val / 1024, ht⟩ (0 : Fin 2) * 1024 + 1024
    rw [h70]
    show (i 0).val / 1024 * 1024 ≤ (i 0).val ∧ (i 0).val < (i 0).val / 1024 * 1024 + 1024
    omega
  | ⟨1, _⟩ =>
    show win0_7.index ⟨(i 0).val / 1024, ht⟩ (1 : Fin 2) * 256 ≤ (i 1).val ∧ (i 1).val < win0_7.index ⟨(i 0).val / 1024, ht⟩ (1 : Fin 2) * 256 + 256
    rw [h71]
    omega

/-- After the run result window 7's array is `cNew` of the argument arrays. -/
theorem final7 (c : Dev nD) : (dats m 0 c).arrAt 7 cfg0.N
    = cNew (aX m c) (aH m c) (aC m c) (aWi m c) (aWh m c) (aBi m c) (aBh m c) :=
  (dats m 0 c).arrAt_eq_of_cover 7 _ (fun t _ => flushed7_eq m c t) cover7

/-- The kernel's run, read: the two results at the new hidden and cell states of the arguments, the arguments unchanged. -/
theorem run : θ_run defs (onTc (τ := τ) (main (F := Ideal))) ⟨m, fun _ => 0, ρ⟩ fun r => ∀ c : Dev nD,
      r.2.mem ((c : Thread nD τ).loc main_v8_0) = hNew (aX m c) (aH m c) (aC m c) (aWi m c) (aWh m c) (aBi m c) (aBh m c)
      ∧ r.2.mem ((c : Thread nD τ).loc main_v8_1) = cNew (aX m c) (aH m c) (aC m c) (aWi m c) (aWh m c) (aBi m c) (aBh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final6 m c), (h c).2.1.trans (final7 m c), (h c).2.2⟩)
    (Cert.KernelIdeal.Value.run_blocks m ρ)

end Cert.Lstm.Kern

end
-- ==== Proof.lean ====
/-
  A fused long short-term memory cell step against its plain reference, on the extended reals.

  Both programs compute, for every batch row r and hidden unit j,
      c'(r, j) = sigm(pre(r,1,j)) * c(r, j) + sigm(pre(r,0,j)) * tanh(pre(r,2,j)),
      h'(r, j) = sigm(pre(r,3,j)) * tanh(c'(r, j)),
  where pre(r, k, j) = sum_i x(r,i) Wi(k,j,i) + sum_i h(r,i) Wh(k,j,i) + bi(k,j) + bh(k,j) and sigm is the logistic
  function (CellSpec).  The reference does so literally (RefValue).  The kernel lays the weights out as two 256 x 1024
  matrices and the summed biases as one row (HostPrep), works on 1024 batch rows per grid point (Gates), and writes each
  logistic gate as 1/2 * (tanh (g/2) + 1), which is the logistic function at every extended real, the infinities
  included (LibSigmoidTanh); adding the two biases first is associativity of addition.  The 64 points' row blocks
  cover the two result arrays (Blocks).  No step uses that the inputs are finite.
  The three frames are the generated ones (the reference's is its generated run with the results dropped), and the
  idealization rewrote nothing, so its conjunct is trivial.
-/
import proofs.«179582_j82703890252312_2_alg».proof.Defs
import proofs.«179582_j82703890252312_2_alg».proof.Proof.Gen.Kernel
import proofs.«179582_j82703890252312_2_alg».proof.Proof.Gen.Kernel.Skeleton
import proofs.«179582_j82703890252312_2_alg».proof.Proof.Gen.Kernel.Launch
import proofs.«179582_j82703890252312_2_alg».proof.Proof.Gen.Kernel.Points
import proofs.«179582_j82703890252312_2_alg».proof.Proof.Gen.Kernel.Frame
import proofs.«179582_j82703890252312_2_alg».proof.Proof.Gen.KernelIdeal
import proofs.«179582_j82703890252312_2_alg».proof.Proof.Gen.KernelIdeal.Skeleton
import proofs.«179582_j82703890252312_2_alg».proof.Proof.Gen.KernelIdeal.Launch
import proofs.«179582_j82703890252312_2_alg».proof.Proof.Gen.KernelIdeal.Points
import proofs.«179582_j82703890252312_2_alg».proof.Proof.Gen.KernelIdeal.Frame
import proofs.«179582_j82703890252312_2_alg».proof.Proof.Gen.ReferenceIdeal
import proofs.«179582_j82703890252312_2_alg».proof.Proof.Gen.KernelIdeal.Value
import proofs.«179582_j82703890252312_2_alg».proof.Proof.Gen.ReferenceIdeal.Run
import proofs.«179582_j82703890252312_2_alg».proof.Proof.Gen.ReferenceIdeal.Read
import proofs.«179582_j82703890252312_2_alg».proof.Proof.Gen.Pre_finite_inputs
import proofs.«179582_j82703890252312_2_alg».proof.Proof.RefValue
import proofs.«179582_j82703890252312_2_alg».proof.Proof.Blocks
import Idealize.ShloMosaic.Adequacy
import Idealize.ShloMosaic.Init

noncomputable section

namespace Cert.Proof

open Idealize.ShloMosaic Idealize.SL.Sem Cert.Lstm

/-- The kernel as printed runs, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Run from memories that agree on the seven arguments, both programs end with the new hidden state and the new cell
    state of those arguments. -/
theorem algebraic : Cert.algebraic_KernelIdeal_ReferenceIdeal := by
  intro m ρ m' ρ' _ hagree
  refine ⟨fun c => hNew (Kern.aX m c) (Kern.aH m c) (Kern.aC m c) (Kern.aWi m c) (Kern.aWh m c) (Kern.aBi m c) (Kern.aBh m c),
    fun c => cNew (Kern.aX m c) (Kern.aH m c) (Kern.aC m c) (Kern.aWi m c) (Kern.aWh m c) (Kern.aBi m c) (Kern.aBh m c),
    Kern.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    rw [Cert.ReferenceIdeal.Read.val_main_v40_eq, Ref.ref_h, e0, e1, e2, e3, e4, e5, e6]
  · obtain ⟨e0, e1, e2, e3, e4, e5, e6⟩ := hagree c
    refine (Cert.ReferenceIdeal.Read.val_main_v38_eq _ _ _ _ _ _ _).trans ?_
    rw [Ref.ref_c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
